-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x784 : Shape := ⟨2, ![131072, 784]⟩
abbrev S64x784 : Shape := ⟨2, ![64, 784]⟩
abbrev S_ : Shape := ⟨0, ![]⟩

class Facts : Prop where
  bcast_S_S131072x784 : S_.BroadcastsInDim S131072x784 (![] : Fin 0 → Fin S131072x784.rank)
  reducesTo_S131072x784_S_d0_1 : S131072x784.ReducesTo [0, 1] S_
  h_S_ : 0 < S_.numel
  bcast_S_S64x784 : S_.BroadcastsInDim S64x784 (![] : Fin 0 → Fin S64x784.rank)
  reducesTo_S64x784_S_d0_1 : S64x784.ReducesTo [0, 1] S_

variable [Facts]

def fn {F : FTy → Type} [FloatOps F] (main_arg0 : FVec F S131072x784 .f32) (main_arg1 : FVec F S64x784 .f32) : IVec S_ 1 :=
  let main_v0 : FVec F S131072x784 .f32 := Host.absf main_arg0
  let main_cst : FVec F S_ .f32 := constant S_ .f32 0x7F800000#32
  let main_v1 : FVec F S131072x784 .f32 := broadcastInDim S131072x784 ![] bcast_S_S131072x784 main_cst
  let main_v2 : IVec S131072x784 1 := cmpf .olt main_v0 main_v1
  let main_c : IVec S_ 1 := constantI S_ 1 1#1
  let main_v3 : IVec S_ 1 := (fun x v => Host.reduce IntOp.andi x v reducesTo_S131072x784_S_d0_1 h_S_) main_v2 main_c
  let main_v4 : FVec F S64x784 .f32 := Host.absf main_arg1
  let main_cst_0 : FVec F S_ .f32 := constant S_ .f32 0x7F800000#32
  let main_v5 : FVec F S64x784 .f32 := broadcastInDim S64x784 ![] bcast_S_S64x784 main_cst_0
  let main_v6 : IVec S64x784 1 := cmpf .olt main_v4 main_v5
  let main_c_1 : IVec S_ 1 := constantI S_ 1 1#1
  let main_v7 : IVec S_ 1 := (fun x v => Host.reduce IntOp.andi x v reducesTo_S64x784_S_d0_1 h_S_) main_v6 main_c_1
  let main_v8 : IVec S_ 1 := andi main_v3 main_v7
  main_v8
-- ==== Kernel.lean ====
abbrev S131072x784 : Shape := ⟨2, ![131072, 784]⟩
abbrev S64x784 : Shape := ⟨2, ![64, 784]⟩
abbrev S2048x784 : Shape := ⟨2, ![2048, 784]⟩
abbrev S784x64 : Shape := ⟨2, ![784, 64]⟩
abbrev S2048x64 : Shape := ⟨2, ![2048, 64]⟩
abbrev S64 : Shape := ⟨1, ![64]⟩
abbrev S1x64 : Shape := ⟨2, ![1, 64]⟩
abbrev S2048 : Shape := ⟨1, ![2048]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S131072x784, .f32⟩
  | .hbm, ⟨1, _⟩ => ⟨S64x784, .f32⟩
  | .hbm, ⟨2, _⟩ => ⟨S131072x784, .f32⟩
  | .local _ .vmem, ⟨0, _⟩ => ⟨S2048x784, .f32⟩
  | .local _ .vmem, ⟨1, _⟩ => ⟨S2048x784, .f32⟩
  | .local _ .vmem, ⟨2, _⟩ => ⟨S64x784, .f32⟩
  | .local _ .vmem, ⟨3, _⟩ => ⟨S2048x784, .f32⟩
  | .local _ .vmem, ⟨4, _⟩ => ⟨S2048x784, .f32⟩
  | _, _ => ⟨S131072x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x784_S2048x784_0_0 : ∀ a, (![0, 0] : Fin 2 → Nat) a + S2048x784.size a ≤ S2048x784.size a
  h_S2048x784 : 0 < S2048x784.numel
  inb_S64x784_S64x784_0_0 : ∀ a, (![0, 0] : Fin 2 → Nat) a + S64x784.size a ≤ S64x784.size a
  h_S64x784 : 0 < S64x784.numel
  bitsLt_bf16_f32 : FTy.bits .bf16 < FTy.bits .f32
  transposes_S64x784_p1_0_S784x64 : S64x784.Transposes [1, 0] S784x64
  reduces_S64x784_S64 : S64x784.Reduces [1] S64
  shapeCasts_S64_S1x64 : S64.ShapeCasts S1x64
  broadcasts_S1x64_S2048x64 : S1x64.Broadcasts S2048x64
  reduces_S2048x64_S2048 : S2048x64.Reduces [1] S2048
  shapeCasts_S2048_S2048x1 : S2048.ShapeCasts S2048x1
  broadcasts_S2048x1_S2048x64 : S2048x1.Broadcasts S2048x64
  dot_S2048x784_S784x64_S2048x64_1_0_0_1_n_n_wf : DotDims.WF S2048x784 S784x64 S2048x64 [1] [0] [0] [1] [] []
  dot_S2048x64_S64x784_S2048x784_1_0_0_1_n_n_wf : DotDims.WF S2048x64 S64x784 S2048x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S131072x784.size a
  hwx0_0 : ∀ i : grid0.Coords, EltTy.bits .f32 = 32 ∨ (Rect.block (s := S131072x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x784.size a ≤ S64x784.size a
  hwx0_1 : ∀ i : grid0.Coords, EltTy.bits .f32 = 32 ∨ (Rect.block (s := S64x784) S64x784.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x784.size a ≤ S131072x784.size a
  hwx0_2 : ∀ i : grid0.Coords, EltTy.bits .f32 = 32 ∨ (Rect.block (s := S131072x784) S2048x784.size (cc0_transform_2 i) (hinb0_2 i)).WholeWords (EltTy.packing .f32)

variable [Facts₀]

def dot_S2048x784_S784x64_S2048x64_1_0_0_1_n_n : DotDims S2048x784 S784x64 S2048x64 where
  lhsContracting := [1]
  rhsContracting := [0]
  lhsNonContracting := [0]
  rhsNonContracting := [1]
  lhsBatch := []
  rhsBatch := []
  wf := dot_S2048x784_S784x64_S2048x64_1_0_0_1_n_n_wf
def dot_S2048x64_S64x784_S2048x784_1_0_0_1_n_n : DotDims S2048x64 S64x784 S2048x784 where
  lhsContracting := [1]
  rhsContracting := [0]
  lhsNonContracting := [0]
  rhsNonContracting := [1]
  lhsBatch := []
  rhsBatch := []
  wf := dot_S2048x64_S64x784_S2048x784_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x784.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x784 : Shape := ⟨2, ![131072, 784]⟩
abbrev S64x784 : Shape := ⟨2, ![64, 784]⟩
abbrev S784x64 : Shape := ⟨2, ![784, 64]⟩
abbrev S131072x64 : Shape := ⟨2, ![131072, 64]⟩
abbrev S_ : Shape := ⟨0, ![]⟩
abbrev S64 : Shape := ⟨1, ![64]⟩
abbrev S1x64 : Shape := ⟨2, ![1, 64]⟩
abbrev S131072 : Shape := ⟨1, ![131072]⟩
abbrev S131072x1 : Shape := ⟨2, ![131072, 1]⟩

abbrev nBuf : Space → Nat
  | .hbm => 31
  | .vmem => 0
  | .smem => 0
  | _ => 0

abbrev bufTy : (tb : Table) → Fin (tcTables nBuf tb) → BufTy
  | .hbm, ⟨0, _⟩ => ⟨S131072x784, .f32⟩
  | .hbm, ⟨1, _⟩ => ⟨S64x784, .f32⟩
  | .hbm, ⟨2, _⟩ => ⟨S784x64, .f32⟩
  | .hbm, ⟨3, _⟩ => ⟨S131072x64, .f32⟩
  | .hbm, ⟨4, _⟩ => ⟨S64x784, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S1x64, .f32⟩
  | .hbm, ⟨11, _⟩ => ⟨S131072x64, .f32⟩
  | .hbm, ⟨12, _⟩ => ⟨S131072x64, .f32⟩
  | .hbm, ⟨13, _⟩ => ⟨S_, .f32⟩
  | .hbm, ⟨14, _⟩ => ⟨S131072x64, .f32⟩
  | .hbm, ⟨15, _⟩ => ⟨S131072x64, .f32⟩
  | .hbm, ⟨16, _⟩ => ⟨S_, .f32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S131072, .f32⟩
  | .hbm, ⟨21, _⟩ => ⟨S131072x1, .f32⟩
  | .hbm, ⟨22, _⟩ => ⟨S131072x64, .f32⟩
  | .hbm, ⟨23, _⟩ => ⟨S131072x64, .f32⟩
  | .hbm, ⟨24, _⟩ => ⟨S131072x64, .f32⟩
  | .hbm, ⟨25, _⟩ => ⟨S_, .f32⟩
  | .hbm, ⟨26, _⟩ => ⟨S131072, .f32⟩
  | .hbm, ⟨27, _⟩ => ⟨S131072x1, .f32⟩
  | .hbm, ⟨28, _⟩ => ⟨S131072x64, .f32⟩
  | .hbm, ⟨29, _⟩ => ⟨S131072x64, .f32⟩
  | .hbm, ⟨30, _⟩ => ⟨S131072x784, .f32⟩
  | _, _ => ⟨S131072x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S64x784_S784x64_1_0 : S64x784.Transposes [1, 0] S784x64
  reducesTo_S64x784_S64_d1 : S64x784.ReducesTo [1] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  reducesTo_S131072x64_S131072_d1 : S131072x64.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  dot_S131072x784_S784x64_S131072x64_1_0_0_1_n_n_wf : DotDims.WF S131072x784 S784x64 S131072x64 [1] [0] [0] [1] [] []
  dot_S131072x64_S64x784_S131072x784_1_0_0_1_n_n_wf : DotDims.WF S131072x64 S64x784 S131072x784 [1] [0] [0] [1] [] []

variable [Facts₀]

def dot_S131072x784_S784x64_S131072x64_1_0_0_1_n_n : DotDims S131072x784 S784x64 S131072x64 where
  lhsContracting := [1]
  rhsContracting := [0]
  lhsNonContracting := [0]
  rhsNonContracting := [1]
  lhsBatch := []
  rhsBatch := []
  wf := dot_S131072x784_S784x64_S131072x64_1_0_0_1_n_n_wf
def dot_S131072x64_S64x784_S131072x784_1_0_0_1_n_n : DotDims S131072x64 S64x784 S131072x784 where
  lhsContracting := [1]
  rhsContracting := [0]
  lhsNonContracting := [0]
  rhsNonContracting := [1]
  lhsBatch := []
  rhsBatch := []
  wf := dot_S131072x64_S64x784_S131072x784_1_0_0_1_n_n_wf

class Facts : Prop extends Facts₀ where

variable [Facts]
-- ==== Proof.Spec.lean ====
/-
  The function both programs compute, written once over the extended reals.

  For one row `x` of 784 entries and centers `c` (64 rows of 784 entries):
    sqnorm c k       = Σ_d c[k,d] · c[k,d]
    score x c k      = 20 · (Σ_d x[d] · c[k,d]  −  ½ · sqnorm c k)
    top x c          = max(−∞, max over k of score x c k)      (the fold starts from −∞)
    num x c k        = exp (score x c k − top x c)
    den x c          = Σ_k num x c k
    weight x c k     = num x c k / den x c                      (the soft assignment of the row to center k)
    reconRow x c d   = Σ_k weight x c k · c[k,d]                (the row rebuilt from the centers)
  The array `recon X c` applies `reconRow` to every row of `X`. Row `n` of the result depends on row `n` of
  `X` and on nothing else of `X`: that is why cutting the rows into tiles and rebuilding tile by tile gives the
  same array as rebuilding all rows at once. The three literals are kept as their f32 words; the same word sits
  on both sides, so none is ever evaluated.
-/
import Idealize.ShloMosaic.PureOps.Ideal
import Idealize.ShloMosaic.Lib.ValueIdx

noncomputable section

namespace Cert.SoftRecon

open Idealize.ShloMosaic Idealize.ShloMosaic.ValueIdx

/-- The centers: 64 rows of 784 extended reals. -/
abbrev Centers : Type := (⟨2, ![64, 784]⟩ : Shape).Idx → EReal

/-- The f32 word of one half. -/
abbrev half : EReal := Ideal.ofBits .f32 0x3F000000#32
/-- The f32 word of twenty, the sharpness of the assignment. -/
abbrev scale : EReal := Ideal.ofBits .f32 0x41A00000#32
/-- The f32 word of −∞, from which a maximum is folded. -/
abbrev negInf : EReal := Ideal.ofBits .f32 0xFF800000#32

/-- The squared length of center `k`. -/
def sqnorm (c : Centers) (k : Fin 64) : EReal := ∑ d : Fin 784, c (ix2 k d) * c (ix2 k d)

/-- The score of a row against center `k`: twenty times (inner product minus half the center's squared length). -/
def score (x : Fin 784 → EReal) (c : Centers) (k : Fin 64) : EReal :=
  scale * ((∑ d : Fin 784, x d * c (ix2 k d)) - half * sqnorm c k)

/-- The largest score of a row, folded from −∞ and once more compared with −∞. -/
def top (x : Fin 784 → EReal) (c : Centers) : EReal :=
  max negInf ((Finset.univ : Finset (Fin 64)).fold max negInf fun k => score x c k)

/-- The exponential of a score shifted by the row's largest score. -/
def num (x : Fin 784 → EReal) (c : Centers) (k : Fin 64) : EReal := Ideal.exp (score x c k - top x c)

/-- The sum of those exponentials over the centers. -/
def den (x : Fin 784 → EReal) (c : Centers) : EReal := ∑ k : Fin 64, num x c k

/-- The soft assignment of a row to center `k`. -/
def weight (x : Fin 784 → EReal) (c : Centers) (k : Fin 64) : EReal := Ideal.div (num x c k) (den x c)

/-- Entry `d` of the row rebuilt from the centers with those weights. -/
def reconRow (x : Fin 784 → EReal) (c : Centers) (d : Fin 784) : EReal := ∑ k : Fin 64, weight x c k * c (ix2 k d)

/-- Row `n` of an array of `N` rows. -/
def row {N : Nat} (X : (⟨2, ![N, 784]⟩ : Shape).Idx → EReal) (n : Fin N) : Fin 784 → EReal := fun d => X (ix2 n d)

/-- Every row of `X` rebuilt from the centers. -/
def recon {N : Nat} (X : (⟨2, ![N, 784]⟩ : Shape).Idx → EReal) (c : Centers) : (⟨2, ![N, 784]⟩ : Shape).Idx → EReal :=
  fun i => reconRow (row X ⟨(i 0).val, idx2_lt0 i⟩) c ⟨(i 1).val, idx2_lt1 i⟩

/-- At row `n` and column `d` the rebuilt array is the rebuilt row `n` at `d`. -/
theorem recon_ix2 {N : Nat} (X : (⟨2, ![N, 784]⟩ : Shape).Idx → EReal) (c : Centers) (n : Fin N) (d : Fin 784) :
    recon X c (ix2 n d) = reconRow (row X n) c d := rfl

end Cert.SoftRecon

end
-- ==== Proof.ReferenceValue.lean ====
/-
  The reference computes the specification. Its result is read one operation at a time (the generated stages
  `val_main_v…` and their read-at-an-index lemmas) and each stage is identified, at an index given by its
  coordinates, with the quantity of the specification it computes for row `n`:
    the sum of squares of center `k`           → `sqnorm c k`
    the row-by-center inner products            → `Σ_d X[n,d] · c[k,d]`
    twenty times (inner product − ½ · sqnorm)   → `score`
    the maximum over the centers, from −∞       → the fold of `max` over the 64 centers, then `top`
    the exponential of the shifted score        → `num`
    its sum over the centers, from 0            → `den`
    the quotient                                → `weight`
    the product with the centers                → `reconRow`.
  Broadcasts and the transpose only move indices; the two sums start from the zero word, which is the extended
  real 0.
-/
import proofs.«124704_j8864812498972_1_alg».proof.Proof.Gen.ReferenceIdeal.Read
import proofs.«124704_j8864812498972_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.SoftRecon

variable (X : (⟨S131072x784, .f32⟩ : BufTy).Contents (Elt Ideal)) (C : (⟨S64x784, .f32⟩ : BufTy).Contents (Elt Ideal))

/-- The sum over a center's 784 entries of their squares, started from the zero word, is the center's squared length. -/
theorem sqnorm_at (k : Fin 64) : val_main_v3 (F := Ideal) C (ix1 k) = sqnorm C k := by
  rw [val_main_v3_apply]
  refine (congrArg (· + _) Ideal.ofBits_zero_f32).trans ((zero_add _).trans ?_)
  refine Finset.sum_congr rfl fun d _ => ?_
  have e : idx_main_v3 (ix1 k) d = ix2 k d := funext fun a => match a with | ⟨0, _⟩ => rfl | ⟨1, _⟩ => rfl
  rw [e]
  rfl

/-- Half the squared length of center `k`, laid out as a row and repeated down the 131072 rows. -/
theorem halfsq_at (n : Fin 131072) (k : Fin 64) : val_main_v7 (F := Ideal) C (ix2 n k) = half * sqnorm C k := by
  rw [val_main_v7_apply, val_main_v6_apply, val_main_v5_apply, val_main_v4_apply, val_main_cst_0_apply]
  have e : idx_main_v6 (idx_main_v7 (ix2 n k)) = ix1 k := funext fun a => match a with | ⟨0, _⟩ => rfl
  rw [e, sqnorm_at]
  rfl

/-- The product of the rows with the transposed centers, at `(n, k)`: the inner product of row `n` with center `k`. -/
theorem inner_at (n : Fin 131072) (k : Fin 64) :
    val_main_v1 (F := Ideal) X C (ix2 n k) = ∑ d : Fin 784, X (ix2 n d) * C (ix2 k d) := by
  rw [val_main_v1_apply]
  refine Finset.sum_congr rfl fun d _ => ?_
  rw [val_main_v0_apply]
  have el : lidx_main_v1 (ix2 n k) d = ix2 n d := funext fun a => match a with | ⟨0, _⟩ => rfl | ⟨1, _⟩ => rfl
  have er : idx_main_v0 (ridx_main_v1 (ix2 n k) d) = ix2 k d := funext fun a => match a with | ⟨0, _⟩ => rfl | ⟨1, _⟩ => rfl
  rw [el, er]

/-- Twenty times (inner product minus half the squared length): the score of row `n` against center `k`. -/
theorem score_at (n : Fin 131072) (k : Fin 64) :
    val_main_v10 (F := Ideal) X C (ix2 n k) = score (row (N := 131072) X n) C k := by
  rw [val_main_v10_apply, val_main_v9_apply, val_main_cst_1_apply, val_main_v8_apply, inner_at, halfsq_at]
  rfl

/-- The reduction of the scores over the centers with a maximum body, from −∞: the fold of `max` over the 64 centers. -/
theorem rowmax_at (n : Fin 131072) :
    val_main_v11 (F := Ideal) X C (ix1 n)
      = (Finset.univ : Finset (Fin 64)).fold max negInf fun k => score (row (N := 131072) X n) C k := by
  unfold val_main_v11
  have hr : S131072x64.Reduces [1] S131072 := by decide
  generalize hy : val_main_v10 (F := Ideal) X C = y
  refine (Host.reduce_eq_fold_single (FloatOps.maximumf (F := Ideal) (φ := .f32)) (y : FVec Ideal S131072x64 .f32)
    (val_main_cst_2 (F := Ideal)) reducesTo_S131072x64_S131072_d1 hr h_S_ (ix1 n)).trans ?_
  have hf : (y ∘ hr.lift (ix1 n)) = fun k : Fin 64 => score (row (N := 131072) X n) C k := by
    funext k
    have el : hr.lift (ix1 n) k = ix2 n (⟨k.val, k.isLt⟩ : Fin 64) := by
      funext c; apply Fin.ext
      match c with
      | ⟨0, _⟩ => rfl
      | ⟨1, _⟩ => rfl
    show y (hr.lift (ix1 n) k) = _
    rw [el, ← hy]
    exact score_at X C n _
  rw [hf]
  rfl

/-- Compared once more with −∞: the row's largest score. -/
theorem top_at (n : Fin 131072) : val_main_v13 (F := Ideal) X C (ix1 n) = top (row (N := 131072) X n) C := by
  rw [val_main_v13_apply, val_main_v12_apply, val_main_cst_3_apply, rowmax_at]
  rfl

/-- The largest score of row `n`, kept as a column and repeated along the row. -/
theorem topb_at (n : Fin 131072) (k : Fin 64) : val_main_v15 (F := Ideal) X C (ix2 n k) = top (row (N := 131072) X n) C := by
  rw [val_main_v15_apply, val_main_v14_apply]
  have e : idx_main_v14 (idx_main_v15 (ix2 n k)) = ix1 n := funext fun a => match a with | ⟨0, _⟩ => rfl
  rw [e, top_at]

/-- The exponential of the score shifted by the row's largest score. -/
theorem num_at (n : Fin 131072) (k : Fin 64) : val_main_v17 (F := Ideal) X C (ix2 n k) = num (row (N := 131072) X n) C k := by
  rw [val_main_v17_apply, val_main_v16_apply, score_at, topb_at]
  rfl

/-- The sum of those exponentials over the centers, started from the zero word. -/
theorem den_at (n : Fin 131072) : val_main_v18 (F := Ideal) X C (ix1 n) = den (row (N := 131072) X n) C := by
  rw [val_main_v18_apply]
  refine (congrArg (· + _) Ideal.ofBits_zero_f32).trans ((zero_add _).trans ?_)
  refine Finset.sum_congr rfl fun k _ => ?_
  have e : idx_main_v18 (ix1 n) k = ix2 n k := funext fun a => match a with | ⟨0, _⟩ => rfl | ⟨1, _⟩ => rfl
  rw [e, num_at]

/-- That sum, kept as a column and repeated along the row. -/
theorem denb_at (n : Fin 131072) (k : Fin 64) : val_main_v20 (F := Ideal) X C (ix2 n k) = den (row (N := 131072) X n) C := by
  rw [val_main_v20_apply, val_main_v19_apply]
  have e : idx_main_v19 (idx_main_v20 (ix2 n k)) = ix1 n := funext fun a => match a with | ⟨0, _⟩ => rfl
  rw [e, den_at]

/-- The quotient: the soft assignment of row `n` to center `k`. -/
theorem weight_at (n : Fin 131072) (k : Fin 64) : val_main_v21 (F := Ideal) X C (ix2 n k) = weight (row (N := 131072) X n) C k := by
  rw [val_main_v21_apply, num_at, denb_at]
  rfl

/-- THE REFERENCE'S RESULT is every row rebuilt from the centers: the last product, at `(n, d)`, is the sum over the
    centers of the row's weights times the centers' entries `d`. -/
theorem reference_eq : val_main_v22 (F := Ideal) X C = recon (N := 131072) X C := by
  funext i
  obtain ⟨n, d, rfl⟩ : ∃ (n : Fin 131072) (d : Fin 784), i = ix2 n d := ⟨i 0, i 1, eq_ix2 i⟩
  rw [val_main_v22_apply, recon_ix2]
  refine Finset.sum_congr rfl fun k _ => ?_
  have el : lidx_main_v22 (ix2 n d) k = ix2 n k := funext fun a => match a with | ⟨0, _⟩ => rfl | ⟨1, _⟩ => rfl
  have er : ridx_main_v22 (ix2 n d) k = ix2 k d := funext fun a => match a with | ⟨0, _⟩ => rfl | ⟨1, _⟩ => rfl
  rw [el, er, weight_at]

end Cert.ReferenceIdeal.RefValue

end
-- ==== Proof.LibKeepdims.lean ====
/-
  Two layout operations read at an index given by coordinates, for a reduction that keeps its reduced axis as a
  unit axis: a vector of `a` entries cast to a column `[a, 1]`, and a column `[a, 1]` broadcast along its unit
  axis to `[a, b]`. Both are instances of the library's general lemmas (a shape cast reads the operand at the index
  with the same row-major position; a broadcast reads the operand at the trailing coordinates, `0` on unit axes)
  with the coordinates' arithmetic discharged.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to a column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelPayload.lean ====
/-
  What the kernel's body stores for one tile of 2048 rows, read at an index: with `x0` the tile of the rows and `x1`
  the centers, the stored value at `(r, d)` is `reconRow` of row `r` of the tile at `d`.

  The body's one stored value is cut into the quantities it computes on the way (`pay_eq`: the cut is the same term),
  and each is identified with the specification's at an index given by coordinates:
    the centers rounded to the narrow format and transposed   → at `(d, k)`, `x1[k,d]` (a change of format is the identity)
    the product of the tile with them, into zeros             → `Σ_d x0[r,d] · x1[k,d]`
    the sum of squares along a center's entries               → `sqnorm`
    times one half, as a row, repeated down the tile          → `½ · sqnorm x1 k`
    twenty times the difference                               → `score`
    the maximum along a row from −∞, compared again with −∞   → `top`
    the exponential of the score shifted by it                → `num`
    its sum along the row                                     → `den`
    the quotient, the sum kept as a column and repeated       → `weight`
    the product of the weights with the centers, into zeros   → `reconRow`.
  A sum over one axis is the `Fin`-indexed sum over that axis's coordinates, a maximum over one axis the fold of `max`
  over them, a matrix product into zeros the sum over the contracted index.
-/
import proofs.«124704_j8864812498972_1_alg».proof.Proof.Gen.KernelIdeal.Skeleton
import proofs.«124704_j8864812498972_1_alg».proof.Proof.Spec
import proofs.«124704_j8864812498972_1_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx Cert.SoftRecon Cert.Keepdims

variable (x0 : FVec Ideal S2048x784 .f32) (x1 : FVec Ideal S64x784 .f32)

/-! ## The body's value, cut into its quantities -/

/-- The centers in the narrow format, transposed. -/
def centersT : FVec Ideal S784x64 .bf16 :=
  transpose S784x64 [1, 0] (truncf .bf16 x1 bitsLt_bf16_f32) transposes_S64x784_p1_0_S784x64

/-- The tile's rows against the centers. -/
def inner : FVec Ideal S2048x64 .f32 :=
  matmul dot_S2048x784_S784x64_S2048x64_1_0_0_1_n_n none (truncf .bf16 x0 bitsLt_bf16_f32) (centersT x1) (constant S2048x64 .f32 0x00000000#32)

/-- Each center's sum of squares. -/
def squares : FVec Ideal S64 .f32 :=
  multiReduction .add [1] S64 (mulf x1 x1) 0x00000000#32 reduces_S64x784_S64 (.inl rfl) rfl

/-- Half of it, as a row, repeated down the tile. -/
def halfSquares : FVec Ideal S2048x64 .f32 :=
  broadcastTo S2048x64 (mulf (broadcast S1x64 (Scalar.ofBits .f32 0x3F000000#32)) (shapeCast S1x64 (squares x1) shapeCasts_S64_S1x64))
    broadcasts_S1x64_S2048x64

/-- The scores of the tile's rows against the centers. -/
def scores : FVec Ideal S2048x64 .f32 :=
  mulf (broadcast S2048x64 (Scalar.ofBits .f32 0x41A00000#32)) (subf (inner x0 x1) (halfSquares x1))

/-- Each row's largest score. -/
def tops : FVec Ideal S2048 .f32 :=
  maximumf (broadcast S2048 (Scalar.ofBits .f32 0xFF800000#32))
    (multiReduction .maximumf [1] S2048 (scores x0 x1) 0xFF800000#32 reduces_S2048x64_S2048 (.inl rfl) rfl)

/-- The exponentials of the shifted scores. -/
def nums : FVec Ideal S2048x64 .f32 :=
  exp (subf (scores x0 x1)
    (broadcastTo S2048x64 (shapeCast S2048x1 (tops x0 x1) shapeCasts_S2048_S2048x1) broadcasts_S2048x1_S2048x64))

/-- Their sums along the rows. -/
def dens : FVec Ideal S2048 .f32 :=
  multiReduction .add [1] S2048 (nums x0 x1) 0x00000000#32 reduces_S2048x64_S2048 (.inl rfl) rfl

/-- The soft assignments. -/
def weights : FVec Ideal S2048x64 .f32 :=
  divf (nums x0 x1)
    (broadcastTo S2048x64 (shapeCast S2048x1 (dens x0 x1) shapeCasts_S2048_S2048x1) broadcasts_S2048x1_S2048x64)

/-- The rows rebuilt from the centers. -/
def rebuilt : FVec Ideal S2048x784 .f32 :=
  matmul dot_S2048x64_S64x784_S2048x784_1_0_0_1_n_n none (truncf .bf16 (weights x0 x1) bitsLt_bf16_f32) (truncf .bf16 x1 bitsLt_bf16_f32)
    (constant S2048x784 .f32 0x00000000#32)

/-- The body's stored value is the last of these. -/
theorem pay_eq : k0_pay1 (F := Ideal) x0 x1 = rebuilt x0 x1 := rfl

/-! ## The two products' operand indices -/

/-- The operand indices of the first product at an output index and a contraction position: the left operand is read
    at (the output's row, the position), the right at (the position, the output's column). -/
theorem first_lhs_row (i : S2048x64.Idx) (q : dot_S2048x784_S784x64_S2048x64_1_0_0_1_n_n.contr.Idx) : (dot_S2048x784_S784x64_S2048x64_1_0_0_1_n_n.lhsIdx i q 0).val = (i 0).val := by
  unfold DotDims.lhsIdx
  rw [dif_neg (show ¬(0 : Fin S2048x784.rank) ∈ dot_S2048x784_S784x64_S2048x64_1_0_0_1_n_n.lhsBatch by decide), dif_pos (show (0 : Fin S2048x784.rank) ∈ dot_S2048x784_S784x64_S2048x64_1_0_0_1_n_n.lhsNonContracting by decide)]
  rfl
theorem first_lhs_mid (i : S2048x64.Idx) (q : dot_S2048x784_S784x64_S2048x64_1_0_0_1_n_n.contr.Idx) : (dot_S2048x784_S784x64_S2048x64_1_0_0_1_n_n.lhsIdx i q 1).val = (q ⟨0, by decide⟩).val :=
  dot_S2048x784_S784x64_S2048x64_1_0_0_1_n_n.lhsIdx_val_of_single rfl i q
theorem first_rhs_mid (i : S2048x64.Idx) (q : dot_S2048x784_S784x64_S2048x64_1_0_0_1_n_n.contr.Idx) : (dot_S2048x784_S784x64_S2048x64_1_0_0_1_n_n.rhsIdx i q 0).val = (q ⟨0, by decide⟩).val :=
  dot_S2048x784_S784x64_S2048x64_1_0_0_1_n_n.rhsIdx_val_of_single rfl i q
theorem first_rhs_col (i : S2048x64.Idx) (q : dot_S2048x784_S784x64_S2048x64_1_0_0_1_n_n.contr.Idx) : (dot_S2048x784_S784x64_S2048x64_1_0_0_1_n_n.rhsIdx i q 1).val = (i 1).val := by
  unfold DotDims.rhsIdx
  rw [dif_neg (show ¬(1 : Fin S784x64.rank) ∈ dot_S2048x784_S784x64_S2048x64_1_0_0_1_n_n.rhsBatch by decide), dif_pos (show (1 : Fin S784x64.rank) ∈ dot_S2048x784_S784x64_S2048x64_1_0_0_1_n_n.rhsNonContracting by decide)]
  rfl

/-- The operand indices of the second product at an output index and a contraction position: the left operand is read
    at (the output's row, the position), the right at (the position, the output's column). -/
theorem second_lhs_row (i : S2048x784.Idx) (q : dot_S2048x64_S64x784_S2048x784_1_0_0_1_n_n.contr.Idx) : (dot_S2048x64_S64x784_S2048x784_1_0_0_1_n_n.lhsIdx i q 0).val = (i 0).val := by
  unfold DotDims.lhsIdx
  rw [dif_neg (show ¬(0 : Fin S2048x64.rank) ∈ dot_S2048x64_S64x784_S2048x784_1_0_0_1_n_n.lhsBatch by decide), dif_pos (show (0 : Fin S2048x64.rank) ∈ dot_S2048x64_S64x784_S2048x784_1_0_0_1_n_n.lhsNonContracting by decide)]
  rfl
theorem second_lhs_mid (i : S2048x784.Idx) (q : dot_S2048x64_S64x784_S2048x784_1_0_0_1_n_n.contr.Idx) : (dot_S2048x64_S64x784_S2048x784_1_0_0_1_n_n.lhsIdx i q 1).val = (q ⟨0, by decide⟩).val :=
  dot_S2048x64_S64x784_S2048x784_1_0_0_1_n_n.lhsIdx_val_of_single rfl i q
theorem second_rhs_mid (i : S2048x784.Idx) (q : dot_S2048x64_S64x784_S2048x784_1_0_0_1_n_n.contr.Idx) : (dot_S2048x64_S64x784_S2048x784_1_0_0_1_n_n.rhsIdx i q 0).val = (q ⟨0, by decide⟩).val :=
  dot_S2048x64_S64x784_S2048x784_1_0_0_1_n_n.rhsIdx_val_of_single rfl i q
theorem second_rhs_col (i : S2048x784.Idx) (q : dot_S2048x64_S64x784_S2048x784_1_0_0_1_n_n.contr.Idx) : (dot_S2048x64_S64x784_S2048x784_1_0_0_1_n_n.rhsIdx i q 1).val = (i 1).val := by
  unfold DotDims.rhsIdx
  rw [dif_neg (show ¬(1 : Fin S64x784.rank) ∈ dot_S2048x64_S64x784_S2048x784_1_0_0_1_n_n.rhsBatch by decide), dif_pos (show (1 : Fin S64x784.rank) ∈ dot_S2048x64_S64x784_S2048x784_1_0_0_1_n_n.rhsNonContracting by decide)]
  rfl

/-! ## Each quantity at an index -/

/-- The transposed narrow centers at `(d, k)` are the centers at `(k, d)`. -/
theorem centersT_at (d : Fin 784) (k : Fin 64) : centersT x1 (ix2 d k) = x1 (ix2 k d) := by
  unfold centersT
  rw [transpose_ix2_apply]
  rfl

/-- The first product at `(r, k)`: the inner product of the tile's row `r` with center `k`. -/
theorem inner_at (r : Fin 2048) (k : Fin 64) : inner x0 x1 (ix2 r k) = ∑ d : Fin 784, x0 (ix2 r d) * x1 (ix2 k d) := by
  unfold inner
  refine (Ideal.matmul_constant_zero_apply dot_S2048x784_S784x64_S2048x64_1_0_0_1_n_n none _ _ (ix2 r k)).trans ?_
  rw [← Equiv.sum_comp (contrEquiv1 dot_S2048x784_S784x64_S2048x64_1_0_0_1_n_n 784 rfl rfl).symm]
  refine Finset.sum_congr rfl fun d _ => ?_
  have hk := contrEquiv1_symm_val dot_S2048x784_S784x64_S2048x64_1_0_0_1_n_n 784 rfl rfl d
  have el : dot_S2048x784_S784x64_S2048x64_1_0_0_1_n_n.lhsIdx (ix2 r k) ((contrEquiv1 dot_S2048x784_S784x64_S2048x64_1_0_0_1_n_n 784 rfl rfl).symm d) = ix2 r d := funext fun a => Fin.ext (by
    match a with
    | ⟨0, _⟩ => exact first_lhs_row _ _
    | ⟨1, _⟩ => exact (first_lhs_mid _ _).trans hk)
  have er : dot_S2048x784_S784x64_S2048x64_1_0_0_1_n_n.rhsIdx (ix2 r k) ((contrEquiv1 dot_S2048x784_S784x64_S2048x64_1_0_0_1_n_n 784 rfl rfl).symm d) = ix2 d k := funext fun a => Fin.ext (by
    match a with
    | ⟨0, _⟩ => exact (first_rhs_mid _ _).trans hk
    | ⟨1, _⟩ => exact first_rhs_col _ _)
  rw [el, er, centersT_at]
  rfl

/-- The sum of a center's squared entries is its squared length. -/
theorem squares_at (k : Fin 64) : squares x1 (ix1 k) = sqnorm x1 k :=
  (Ideal.multiReduction_add_single (mulf x1 x1) 0x00000000#32 reduces_S64x784_S64 (.inl rfl) rfl (ix1 k)).trans
    (Finset.sum_congr rfl fun d _ => by
      have e : reduces_S64x784_S64.lift (ix1 k) d = ix2 k (⟨d.val, d.isLt⟩ : Fin 784) := by
        funext c; apply Fin.ext
        match c with
        | ⟨0, _⟩ => rfl
        | ⟨1, _⟩ => rfl
      rw [e]
      rfl)

/-- Half the squared length of center `k`, whatever the row of the tile. -/
theorem halfSquares_at (r : Fin 2048) (k : Fin 64) : halfSquares x1 (ix2 r k) = half * sqnorm x1 k := by
  unfold halfSquares
  rw [broadcastTo_1b_ab_apply, mulf_apply, shapeCast_a_1a_apply, squares_at]
  rfl

/-- The score of the tile's row `r` against center `k`. -/
theorem scores_at (r : Fin 2048) (k : Fin 64) : scores x0 x1 (ix2 r k) = score (row (N := 2048) x0 r) x1 k := by
  unfold scores
  rw [mulf_apply, subf_apply, inner_at, halfSquares_at]
  rfl

/-- The largest score of the tile's row `r`: the fold of `max` over the 64 centers from −∞, compared again with −∞. -/
theorem tops_at (r : Fin 2048) : tops x0 x1 (ix1 r) = top (row (N := 2048) x0 r) x1 := by
  unfold tops
  rw [maximumf_apply]
  refine congrArg (max negInf) ?_
  refine (Ideal.multiReduction_maximumf_single (scores x0 x1) 0xFF800000#32 reduces_S2048x64_S2048 (.inl rfl) rfl (ix1 r)).trans ?_
  have hf : (scores x0 x1 ∘ reduces_S2048x64_S2048.lift (ix1 r)) = fun k : Fin 64 => score (row (N := 2048) x0 r) x1 k := by
    funext k
    have e : reduces_S2048x64_S2048.lift (ix1 r) k = ix2 r (⟨k.val, k.isLt⟩ : Fin 64) := by
      funext c; apply Fin.ext
      match c with
      | ⟨0, _⟩ => rfl
      | ⟨1, _⟩ => rfl
    show scores x0 x1 (reduces_S2048x64_S2048.lift (ix1 r) k) = _
    rw [e]
    exact scores_at x0 x1 r _
  rw [hf]
  rfl

/-- The exponential of the score shifted by the row's largest. -/
theorem nums_at (r : Fin 2048) (k : Fin 64) : nums x0 x1 (ix2 r k) = num (row (N := 2048) x0 r) x1 k := by
  unfold nums
  show Ideal.exp (subf (scores x0 x1)
    (broadcastTo S2048x64 (shapeCast S2048x1 (tops x0 x1) shapeCasts_S2048_S2048x1) broadcasts_S2048x1_S2048x64) (ix2 r k)) = _
  rw [subf_apply, scores_at, broadcastTo_a1_ab_apply, shapeCast_a_a1_apply, tops_at]
  rfl

/-- The sum of those exponentials along the row. -/
theorem dens_at (r : Fin 2048) : dens x0 x1 (ix1 r) = den (row (N := 2048) x0 r) x1 :=
  (Ideal.multiReduction_add_single (nums x0 x1) 0x00000000#32 reduces_S2048x64_S2048 (.inl rfl) rfl (ix1 r)).trans
    (Finset.sum_congr rfl fun k _ => by
      have e : reduces_S2048x64_S2048.lift (ix1 r) k = ix2 r (⟨k.val, k.isLt⟩ : Fin 64) := by
        funext c; apply Fin.ext
        match c with
        | ⟨0, _⟩ => rfl
        | ⟨1, _⟩ => rfl
      rw [e]
      exact nums_at x0 x1 r _)

/-- The soft assignment of the tile's row `r` to center `k`. -/
theorem weights_at (r : Fin 2048) (k : Fin 64) : weights x0 x1 (ix2 r k) = weight (row (N := 2048) x0 r) x1 k := by
  unfold weights
  rw [divf_apply, nums_at, broadcastTo_a1_ab_apply, shapeCast_a_a1_apply, dens_at]
  rfl

/-- The second product at `(r, d)`: the sum over the centers of the row's weights times the centers' entries `d`. -/
theorem rebuilt_at (r : Fin 2048) (d : Fin 784) : rebuilt x0 x1 (ix2 r d) = reconRow (row (N := 2048) x0 r) x1 d := by
  unfold rebuilt
  refine (Ideal.matmul_constant_zero_apply dot_S2048x64_S64x784_S2048x784_1_0_0_1_n_n none _ _ (ix2 r d)).trans ?_
  rw [← Equiv.sum_comp (contrEquiv1 dot_S2048x64_S64x784_S2048x784_1_0_0_1_n_n 64 rfl rfl).symm]
  refine Finset.sum_congr rfl fun k _ => ?_
  have hk := contrEquiv1_symm_val dot_S2048x64_S64x784_S2048x784_1_0_0_1_n_n 64 rfl rfl k
  have el : dot_S2048x64_S64x784_S2048x784_1_0_0_1_n_n.lhsIdx (ix2 r d) ((contrEquiv1 dot_S2048x64_S64x784_S2048x784_1_0_0_1_n_n 64 rfl rfl).symm k) = ix2 r k := funext fun a => Fin.ext (by
    match a with
    | ⟨0, _⟩ => exact second_lhs_row _ _
    | ⟨1, _⟩ => exact (second_lhs_mid _ _).trans hk)
  have er : dot_S2048x64_S64x784_S2048x784_1_0_0_1_n_n.rhsIdx (ix2 r d) ((contrEquiv1 dot_S2048x64_S64x784_S2048x784_1_0_0_1_n_n 64 rfl rfl).symm k) = ix2 k d := funext fun a => Fin.ext (by
    match a with
    | ⟨0, _⟩ => exact (second_rhs_mid _ _).trans hk
    | ⟨1, _⟩ => exact second_rhs_col _ _)
  rw [el, er]
  show weights x0 x1 (ix2 r k) * x1 (ix2 k d) = _
  rw [weights_at]

/-- THE STORED VALUE AT `(r, d)`: row `r` of the tile, rebuilt from the centers, at `d`. -/
theorem payload_at (r : Fin 2048) (d : Fin 784) :
    k0_pay1 (F := Ideal) x0 x1 (ix2 r d) = reconRow (row (N := 2048) x0 r) x1 d :=
  (congrFun (pay_eq x0 x1) (ix2 r d)).trans (rebuilt_at x0 x1 r d)

end Cert.KernelIdeal.Payload

end
-- ==== Proof.KernelArray.lean ====
/-
  From tiles to the array. The kernel runs over 64 grid points; point `t` reads rows `2048·t … 2048·t + 2047` of the
  first argument (all 784 columns) and the whole of the centers, and writes back the same rows of the result. What it
  writes back is the body's stored value of those two blocks, which at `(r, d)` is row `r` of the tile rebuilt from
  the centers (the payload lemma); row `r` of tile `t` is row `2048·t + r` of the argument, and the rebuilt row
  depends on that row only, so point `t` writes back tile `t` of the whole rebuilt array. The 64 tiles cover every
  row (row `n` lies in tile `n / 2048`), so after the run the result array is the rebuilt array.
-/
import proofs.«124704_j8864812498972_1_alg».proof.Proof.Gen.KernelIdeal.Value
import proofs.«124704_j8864812498972_1_alg».proof.Proof.KernelPayload

noncomputable section

namespace Cert.KernelIdeal.Tiles

open Cert.KernelIdeal Cert.KernelIdeal.Gen Idealize.ShloMosaic Idealize.ShloMosaic.TcCoe Idealize.SL.Sem
open Idealize.ShloMosaic.Pipeline (Dat)
open Idealize.ShloMosaic.ValueIdx Cert.SoftRecon

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The index maps, decided over the 64 grid points: the rows' window moves with the result's window along the rows
    and stays at column block 0, the centers' window stays at block (0, 0), and the result's row block at point `t`
    is `t`. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 63 :=
  (by decide +kernel : ∀ t : Fin grid0.N, _)

/-- Every one of the 64 row blocks is some point's. -/
theorem tile_onto : ∀ q : Fin 64, ∃ t : Fin cfg0.N, win0_2.index t = ![q.val, 0] :=
  (by decide +kernel : ∀ q : Fin 64, ∃ t : Fin grid0.N, win0_2.index t = ![q.val, 0])

/-- ONE TILE: if `x1` is the centers `C` and `x0` is the block of `X` whose first row is row `b` of `X`, the body's
    stored value at `j` is the rebuilt array at the index `i` that lies `b` rows below `j` in the same column. Stated over
    plain vectors and indices; a grid point's blocks are put in afterwards. -/
theorem tile_eq (X : (⟨2, ![131072, 784]⟩ : Shape).Idx → EReal) (C : Centers)
    (x0 : FVec Ideal S2048x784 .f32) (x1 : FVec Ideal S64x784 .f32) (b : Nat)
    (j : S2048x784.Idx) (i : S131072x784.Idx)
    (h1 : x1 = C)
    (h0 : ∀ (y : S2048x784.Idx) (z : S131072x784.Idx), (z 0).val = b + (y 0).val → (z 1).val = (y 1).val → x0 y = X z)
    (hi0 : (i 0).val = b + (j 0).val) (hi1 : (i 1).val = (j 1).val) :
    k0_pay1 (F := Ideal) x0 x1 j = recon (N := 131072) X C i := by
  obtain ⟨r, d, rfl⟩ : ∃ (r : Fin 2048) (d : Fin 784), j = ix2 r d := ⟨j 0, j 1, eq_ix2 j⟩
  obtain ⟨n, d', rfl⟩ : ∃ (n : Fin 131072) (d' : Fin 784), i = ix2 n d' := ⟨i 0, i 1, eq_ix2 i⟩
  have hd : d' = d := Fin.ext hi1
  subst hd
  have hrow : row (N := 2048) x0 r = row (N := 131072) X n := funext fun e => h0 (ix2 r e) (ix2 n e) hi0 rfl
  rw [Cert.KernelIdeal.Payload.payload_at, recon_ix2, hrow, h1]

/-- WHAT POINT `t` WRITES BACK is tile `t` of the rebuilt array of the two arguments as the region finds them. -/
theorem flushed_eq (c : Dev nD) (t : Fin cfg0.N) :
    (dats m 0 c).flushed 2 t
      = ((cfg0.win 2).blk t).view.read (Elt Ideal) (recon (N := 131072) (V m c main_arg0) (V m c main_arg1)) := by
  rw [Cert.KernelIdeal.Value.flushed2]
  unfold out0_2
  rw [View.canon_unit_zero origin]
  simp only [View.ld_unit_zero (S := S2048x784) origin, View.ld_unit_zero (S := S64x784) origin]
  obtain ⟨e00, e01, e10, e11, e21, e20⟩ := index_facts t
  funext j
  show k0_pay1 (F := Ideal) (iblk m c 0 t) (iblk m c 1 t) j
    = recon (N := 131072) (V m c main_arg0) (V m c main_arg1) (((cfg0.win 2).blk t).view.emb j)
  refine tile_eq _ _ _ _ (win0_2.index t (0 : Fin 2) * 2048) j _ ?_ ?_ ?_ ?_
  · funext y
    show V m c main_arg1 (((cfg0.win 1).blk t).view.emb y) = V m c main_arg1 y
    refine congrArg _ (funext fun a => Fin.ext ?_)
    match a with
    | ⟨0, _⟩ => show win0_1.index t (0 : Fin 2) * 64 + 1 * (y 0).val = (y 0).val; omega
    | ⟨1, _⟩ => show win0_1.index t (1 : Fin 2) * 784 + 1 * (y 1).val = (y 1).val; omega
  · intro y z hz0 hz1
    show V m c main_arg0 (((cfg0.win 0).blk t).view.emb y) = V m c main_arg0 z
    refine congrArg _ (funext fun a => Fin.ext ?_)
    match a with
    | ⟨0, _⟩ => show win0_0.index t (0 : Fin 2) * 2048 + 1 * (y 0).val = (z 0).val; omega
    | ⟨1, _⟩ => show win0_0.index t (1 : Fin 2) * 784 + 1 * (y 1).val = (z 1).val; omega
  · show win0_2.index t (0 : Fin 2) * 2048 + 1 * (j 0).val = win0_2.index t (0 : Fin 2) * 2048 + (j 0).val; omega
  · show win0_2.index t (1 : Fin 2) * 784 + 1 * (j 1).val = (j 1).val; omega

/-- An index of the array is in point `t`'s tile iff each coordinate is in the tile's range on its axis. -/
theorem mem_tile (t : Fin cfg0.N) (i : S131072x784.Idx) :
    i ∈ ((cfg0.win 2).blk t).view.set ↔ ∀ a : Fin 2, win0_2.index t a * S2048x784.size a ≤ (i a).val
      ∧ (i a).val < win0_2.index t a * S2048x784.size a + S2048x784.size a := by
  show i ∈ ((View.whole main_v0).slice (win0_2.rect t)).set ↔ _
  rw [View.set_slice_whole, Rect.mem_set_unit]
  exact Iff.rfl

/-- THE TILES COVER THE ARRAY: row `n` lies in the tile of the point whose row block is `n / 2048`. -/
theorem covered (i : S131072x784.Idx) :
    ∃ t : Fin cfg0.N, (cfg0.win 2).flush t = true ∧ i ∈ ((cfg0.win 2).blk t).view.set := by
  have hi0 : (i 0).val < 131072 := (i 0).isLt
  have hi1 : (i 1).val < 784 := (i 1).isLt
  obtain ⟨t, ht⟩ := tile_onto ⟨(i 0).val / 2048, by omega⟩
  have q0 : win0_2.index t (0 : Fin 2) = (i 0).val / 2048 := congrFun ht 0
  have q1 : win0_2.index t (1 : Fin 2) = 0 := congrFun ht 1
  refine ⟨t, flush0_2 t, ?_⟩
  rw [mem_tile]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 784 ≤ (i 1).val ∧ (i 1).val < win0_2.index t (1 : Fin 2) * 784 + 784
    omega

/-- THE RESULT ARRAY after the run is the rebuilt array of the two arguments. -/
theorem final (c : Dev nD) :
    (dats m 0 c).arrAt 2 cfg0.N
      = recon (N := 131072) (m ((c : Thread nD τ).loc main_arg0)) (m ((c : Thread nD τ).loc main_arg1)) :=
  (dats m 0 c).arrAt_eq_of_cover 2 _ (fun t _ => flushed_eq m c t) covered

/-- The kernel's run: every weakly fair execution ends with the result array at the rebuilt array of the arguments,
    and the arguments unchanged. -/
theorem run : θ_run defs (onTc (τ := τ) (main (F := Ideal))) ⟨m, fun _ => 0, ρ⟩ fun r => ∀ c : Dev nD,
      r.2.mem ((c : Thread nD τ).loc main_v0)
        = recon (N := 131072) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Tiles

end
-- ==== Proof.lean ====
/-
  The kernel and its reference compute one function of their two arguments, the rows `X` (131072 × 784) and the centers
  `c` (64 × 784), over the extended reals: every row of `X` is scored against every center (twenty times the inner product
  minus half the center's squared length), the scores of a row are turned into weights by a softmax taken stably (shifted by
  the row's largest score), and the row is rebuilt as the weighted sum of the centers. The second result of both programs is
  the first argument itself.

  The two differ only in arrangement. The kernel cuts the rows into 64 tiles of 2048 and rebuilds tile by tile, rounding its
  matrix-product operands to a narrower format (the identity over the extended reals) and writing its products and sums as
  the vector unit's; the reference does all rows at once with the host's. A rebuilt row depends on that row alone, so the
  tiling changes nothing; a sum is a sum in any order, a maximum a maximum, and every literal (one half, twenty, −∞, zero) is
  the same word on both sides. No law of arithmetic that could fail at an infinity is used: the precondition is not opened.

  Spec.lean states the function; ReferenceValue.lean shows the reference's result is it; KernelPayload.lean shows one tile's
  stored value is it on that tile; KernelArray.lean puts the tiles together. Both programs' frames are the generated ones,
  the reference's being its generated run with the result dropped; nothing was rewritten by the idealization.
-/
import proofs.«124704_j8864812498972_1_alg».proof.Defs
import proofs.«124704_j8864812498972_1_alg».proof.Proof.Gen.Kernel
import proofs.«124704_j8864812498972_1_alg».proof.Proof.Gen.Kernel.Frame
import proofs.«124704_j8864812498972_1_alg».proof.Proof.Gen.KernelIdeal
import proofs.«124704_j8864812498972_1_alg».proof.Proof.Gen.KernelIdeal.Frame
import proofs.«124704_j8864812498972_1_alg».proof.Proof.Gen.KernelIdeal.Value
import proofs.«124704_j8864812498972_1_alg».proof.Proof.Gen.ReferenceIdeal
import proofs.«124704_j8864812498972_1_alg».proof.Proof.Gen.ReferenceIdeal.Run
import proofs.«124704_j8864812498972_1_alg».proof.Proof.Gen.ReferenceIdeal.Read
import proofs.«124704_j8864812498972_1_alg».proof.Proof.Gen.Pre_finite_inputs
import proofs.«124704_j8864812498972_1_alg».proof.Proof.Spec
import proofs.«124704_j8864812498972_1_alg».proof.Proof.ReferenceValue
import proofs.«124704_j8864812498972_1_alg».proof.Proof.KernelArray

noncomputable section

namespace Cert.Proof

open Idealize.ShloMosaic Idealize.ShloMosaic.TcCoe Idealize.SL.Sem Cert.SoftRecon

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the arguments both programs end with the rebuilt array of the arguments as first result
    and the first argument as second. -/
theorem algebraic : Cert.algebraic_KernelIdeal_ReferenceIdeal := by
  intro m ρ m' ρ' _ hagree
  refine ⟨fun c => recon (N := 131072) (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => m ((c.tc : Thread Cert.KernelIdeal.nD Cert.KernelIdeal.τ).loc Cert.KernelIdeal.main_arg0), ?_, ?_⟩
  · exact (θ_run Cert.KernelIdeal.defs _ _).mono (fun _ h c => ⟨(h c).1, (h c).2.1, (h c).2.1, (h c).2.2⟩)
      (Cert.KernelIdeal.Tiles.run m ρ)
  · refine (θ_run Cert.ReferenceIdeal.defs _ _).mono (fun _ h c => ⟨?_, ?_, (h c).2.2.1, (h c).2.2.2⟩)
      (Cert.ReferenceIdeal.Value.run (F := Ideal) m' ρ')
    · rw [(h c).1, Cert.ReferenceIdeal.Read.val_main_v22_eq, Cert.ReferenceIdeal.RefValue.reference_eq, (hagree c).1, (hagree c).2]
    · rw [(h c).2.1, (hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
